-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its result named.

  The program is four stretches in a row: host operations, the first layer's grid of ten steps, host operations again,
  the second layer's grid. The contents of every buffer at each boundary are a fold through those stretches from the
  launch memory; the last boundary's contents hold the program's result in the second grid's output array and every
  argument array as launched. Every weakly fair execution terminates without a fault at those contents: the library's
  launch theorem for a program of several grids, over the four stretches, read at the result and at the arguments.
-/
import proofs.«130737_j7937099563499_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibGraphConv.lean ====
/-
  The dense half of a graph convolution on the extended reals, for any extents.

  A graph-convolution layer first adds up, for every node, the feature rows of its in-neighbours (the aggregate `a`)
  and then combines that aggregate with the node's own row `h`: entry (p, q) of the result is the dot product of row p
  of `a` with column q of one weight matrix, plus the dot product of row p of `h` with column q of a second weight
  matrix, plus a bias at q (stored as a 1 × `M` row). Only this combine is stated here; it does not depend on how the
  aggregate was made. The rectifier keeps the larger of an entry and the number the zero word of a 32-bit float denotes.

  Nothing here depends on a program. A block of rows and the whole array are the same definition at two numbers of
  rows, and the fact that joins them is that an entry of the combine depends on one row of each of `a` and `h`, one
  column of each weight matrix and one bias entry (`combine_congr`): a block of rows of the combine of two arrays is
  the combine of the same block of rows of the arrays.
-/
import Idealize.ShloMosaic.Lib.ValueIdx
import Idealize.ShloMosaic.PureOps.Ideal

noncomputable section

open scoped BigOperators

namespace Cert.GraphConv

open Idealize.ShloMosaic Idealize.ShloMosaic.ValueIdx

/-- The combine `a · wr + h · wo + b`: entry (p, q) is `(∑ k, a (p, k) · wr (k, q) + ∑ k, h (p, k) · wo (k, q)) + b (0, q)`,
    for `n` × `K` matrices `a` and `h`, `K` × `M` matrices `wr` and `wo` and a bias row `b` stored as a 1 × `M` matrix. The
    two products are added first and the bias last. -/
def combine {n K M : Nat} (a h : (⟨2, ![n, K]⟩ : Shape).Idx → EReal) (wr wo : (⟨2, ![K, M]⟩ : Shape).Idx → EReal)
    (b : (⟨2, ![1, M]⟩ : Shape).Idx → EReal) : (⟨2, ![n, M]⟩ : Shape).Idx → EReal :=
  fun i => ((∑ k : Fin K, a (ix2 (i 0) k) * wr (ix2 k (i 1))) + ∑ k : Fin K, h (ix2 (i 0) k) * wo (ix2 k (i 1)))
    + b (ix2 (0 : Fin 1) (i 1))

/-- The rectifier of a matrix, entry by entry: the larger of the entry and the value of the 32-bit zero word. -/
def rectify {n M : Nat} (x : (⟨2, ![n, M]⟩ : Shape).Idx → EReal) : (⟨2, ![n, M]⟩ : Shape).Idx → EReal :=
  fun i => max (x i) (Ideal.ofBits .f32 0x00000000#32)

/-- The combine at explicit coordinates. -/
theorem combine_apply {n K M : Nat} (a h : (⟨2, ![n, K]⟩ : Shape).Idx → EReal) (wr wo : (⟨2, ![K, M]⟩ : Shape).Idx → EReal)
    (b : (⟨2, ![1, M]⟩ : Shape).Idx → EReal) (p : Fin n) (q : Fin M) :
    combine a h wr wo b (ix2 p q)
      = ((∑ k : Fin K, a (ix2 p k) * wr (ix2 k q)) + ∑ k : Fin K, h (ix2 p k) * wo (ix2 k q)) + b (ix2 (0 : Fin 1) q) := rfl

/-- The rectifier at an index. -/
theorem rectify_apply {n M : Nat} (x : (⟨2, ![n, M]⟩ : Shape).Idx → EReal) (i : (⟨2, ![n, M]⟩ : Shape).Idx) :
    rectify x i = max (x i) (Ideal.ofBits .f32 0x00000000#32) := rfl

/-- An entry of a combine depends on one row of the aggregate, the same row of the node features, one column of each
    weight matrix and one bias entry: two combines, of matrices with any numbers of rows, agree at entries `i'` and `i`
    as soon as rows `i' 0` of one pair of inputs are rows `i 0` of the other pair, columns `i' 1` of one pair of weight
    matrices are columns `i 1` of the other, and the bias entries agree. -/
theorem combine_congr {n n' K M : Nat} (a h : (⟨2, ![n, K]⟩ : Shape).Idx → EReal) (wr wo : (⟨2, ![K, M]⟩ : Shape).Idx → EReal)
    (b : (⟨2, ![1, M]⟩ : Shape).Idx → EReal) (a' h' : (⟨2, ![n', K]⟩ : Shape).Idx → EReal)
    (wr' wo' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (harow : ∀ k : Fin K, a' (ix2 (i' 0) k) = a (ix2 (i 0) k))
    (hhrow : ∀ k : Fin K, h' (ix2 (i' 0) k) = h (ix2 (i 0) k))
    (hrcol : ∀ k : Fin K, wr' (ix2 k (i' 1)) = wr (ix2 k (i 1)))
    (hocol : ∀ k : Fin K, wo' (ix2 k (i' 1)) = wo (ix2 k (i 1)))
    (hb : b' (ix2 (0 : Fin 1) (i' 1)) = b (ix2 (0 : Fin 1) (i 1))) :
    combine a' h' wr' wo' b' i' = combine a h wr wo b i := by
  have e1 : (∑ k : Fin K, a' (ix2 (i' 0) k) * wr' (ix2 k (i' 1))) = ∑ k : Fin K, a (ix2 (i 0) k) * wr (ix2 k (i 1)) :=
    Finset.sum_congr rfl fun k _ => by rw [harow k, hrcol k]
  have e2 : (∑ k : Fin K, h' (ix2 (i' 0) k) * wo' (ix2 k (i' 1))) = ∑ k : Fin K, h (ix2 (i 0) k) * wo (ix2 k (i 1)) :=
    Finset.sum_congr rfl fun k _ => by rw [hhrow k, hocol k]
  unfold combine
  rw [hb, e1, e2]

/-- The rectifier looks at one entry: rectified matrices agree where the matrices do. -/
theorem rectify_congr {n n' M : Nat} (x : (⟨2, ![n, M]⟩ : Shape).Idx → EReal) (x' : (⟨2, ![n', M]⟩ : Shape).Idx → EReal)
    (i : (⟨2, ![n, M]⟩ : Shape).Idx) (i' : (⟨2, ![n', M]⟩ : Shape).Idx) (hx : x' i' = x i) : rectify x' i' = rectify x i := by
  unfold rectify; rw [hx]

end Cert.GraphConv

end
-- ==== Proof.LibMeanLayer.lean ====
/-
  A graph layer that averages neighbour features, on the extended reals and for any extents.

  Every node p has a row of neighbour sums s(p, ·) and a degree d(p); its mean aggregate is the row divided, entry by
  entry, by the degree. The layer then combines the mean aggregate with the node's own row: entry (p, q) is the dot
  product of the mean row with column q of one weight matrix, plus the dot product of the node's row with column q of a
  second weight matrix, plus a bias at q, and the rectifier keeps the larger of that and zero. How the neighbour sums
  are formed from the node features is left as a parameter `nb`: nothing here looks inside it.

  Three small facts let two programs that spell this layer differently meet:
  * multiplying by the reciprocal 1/c is dividing by c as soon as c is not zero — at the infinities too, because the
    quotient is defined as the product with the inverse;
  * a degree clamped from below by one is not zero;
  * the bias may be added between the two products or after them: addition of extended reals is commutative and
    associative.
  No finiteness is used.
-/
import Idealize.ShloMosaic.Lib.ValueIdx
import Idealize.ShloMosaic.PureOps.Ideal
import Idealize.ShloMosaic.PureOps.Ideal.Laws
import proofs.«130737_j7937099563499_1_alg».proof.Proof.LibGraphConv

noncomputable section

open scoped BigOperators

namespace Cert.MeanLayer

open Idealize.ShloMosaic Idealize.ShloMosaic.ValueIdx Cert.GraphConv

/-- The word of the 32-bit float 1.0 denotes the number one. -/
theorem one_f32 : Ideal.ofBits .f32 0x3F800000#32 = 1 := by
  simp [Ideal.ofBits, Ideal.ieee]
  exact_mod_cast (by norm_num : (8388608 : ℝ) * ((2 : ℝ) ^ 23)⁻¹ = 1)

/-- A number clamped from below by the float one is not zero. -/
theorem max_one_ne_zero (x : EReal) : max x (Ideal.ofBits .f32 0x3F800000#32) ≠ 0 := by
  rw [one_f32]
  exact ne_of_gt (lt_of_lt_of_le zero_lt_one (le_max_right x 1))

/-- The product with the reciprocal of a nonzero `c` is the quotient by `c`, for every extended real `a`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- The rows of `s` divided by the row's degree: entry (p, k) is `s (p, k) / d p`. -/
def meanRows {N K : Nat} (s : (⟨2, ![N, K]⟩ : Shape).Idx → EReal) (d : (⟨1, ![N]⟩ : Shape).Idx → EReal) :
    (⟨2, ![N, K]⟩ : Shape).Idx → EReal :=
  fun i => Ideal.div (s i) (d (ix1 (i 0)))

theorem meanRows_apply {N K : Nat} (s : (⟨2, ![N, K]⟩ : Shape).Idx → EReal) (d : (⟨1, ![N]⟩ : Shape).Idx → EReal)
    (p : Fin N) (k : Fin K) : meanRows s d (ix2 p k) = Ideal.div (s (ix2 p k)) (d (ix1 p)) := rfl

/-- The layer: the rectified combine of the mean aggregate of `nb x` with `x` itself. -/
def layer {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) :
    (⟨2, ![N, M]⟩ : Shape).Idx → EReal :=
  rectify (combine (meanRows (nb x) d) x wl wr b)

/-- The layer at explicit coordinates, the bias added after the two products. -/
theorem layer_apply {N K M : Nat} (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    layer nb d x wl wr b (ix2 p q)
      = max (((∑ k : Fin K, Ideal.div (nb x (ix2 p k)) (d (ix1 p)) * wl (ix2 k q)) + ∑ k : Fin K, x (ix2 p k) * wr (ix2 k q))
          + b (ix2 (0 : Fin 1) q)) (Ideal.ofBits .f32 0x00000000#32) := rfl

/-- The same entry with the bias added between the two products. -/
theorem layer_apply_bias_between {N K M : Nat}
    (nb : ((⟨2, ![N, K]⟩ : Shape).Idx → EReal) → (⟨2, ![N, K]⟩ : Shape).Idx → EReal)
    (d : (⟨1, ![N]⟩ : Shape).Idx → EReal) (x : (⟨2, ![N, K]⟩ : Shape).Idx → EReal)
    (wl wr : (⟨2, ![K, M]⟩ : Shape).Idx → EReal) (b : (⟨2, ![1, M]⟩ : Shape).Idx → EReal) (p : Fin N) (q : Fin M) :
    max (((∑ k : Fin K, Ideal.div (nb x (ix2 p k)) (d (ix1 p)) * wl (ix2 k q)) + b (ix2 (0 : Fin 1) q))
          + ∑ k : Fin K, x (ix2 p k) * wr (ix2 k q)) (Ideal.ofBits .f32 0x00000000#32)
      = layer nb d x wl wr b (ix2 p q) := by
  rw [layer_apply, add_right_comm]

end Cert.MeanLayer

end
-- ==== Proof.EdgeSums.lean ====
/-
  The two quantities both programs read off the edge list, and the aggregate they feed.

  The edge list is a 2 × 800000 array of node numbers: row 0 the sources, row 1 the destinations. A negative source is
  wrapped once by the node count 50000. The neighbour sum of a feature matrix adds, into a zero matrix, the feature row
  of each edge's source at the row of its destination; the clamped in-degree adds a one per edge at its destination and
  keeps the larger of that count and one. Neither is opened here: both programs spell them with the same host
  operations, and all that is used of them is that the clamped in-degree is the maximum of something with one.

  The aggregate scales each row of the neighbour sum by the reciprocal of the row's clamped in-degree, the reciprocal
  computed once as a vector, turned into a column and spread over the 128 feature columns. Because the clamped in-degree
  is not zero, that product is the quotient by it: the rows of the neighbour sum divided by their degree.
-/
import proofs.«130737_j7937099563499_1_alg».proof.Proof.Gen.KernelIdeal
import proofs.«130737_j7937099563499_1_alg».proof.Proof.LibMeanLayer
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Edges

open Cert.KernelIdeal Cert.KernelIdeal.Facts₀ Cert.KernelIdeal.Facts Idealize.ShloMosaic Idealize.ShloMosaic.ValueIdx Cert.MeanLayer

/-- Row 0 of the edge list: each edge's source. -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row 1 of the edge list: each edge's destination. -/
def targets (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The sources as a column, a negative one wrapped by the node count. -/
def sourceCol (e : (⟨S2x800000, .i32⟩ : BufTy).Contents (Elt Ideal)) : (⟨S800000x1, .i32⟩ : BufTy).Contents (Elt Ideal) :=
  broadcastInDim S800000x1 ![0] bcast_S800000_S800000x1_0
    (select (cmpi .slt (sources e) (broadcastInDim S800000 ![] bcast_S_S800000 (constantI S_ 32 0#32)))
      (addi (sources e) (broadcastInDim S800000 ![] bcast_S_S800000 (constantI S_ 32 50000#32))) (sources e))

/-- The destinations as a column. -/
def targetCol (e : (⟨S2x800000, .i32⟩ : BufTy).Contents (Elt Ideal)) : (⟨S800000x1, .i32⟩ : BufTy).Contents (Elt Ideal) :=
  broadcastInDim S800000x1 ![0] bcast_S800000_S800000x1_0 (targets e)

/-- The neighbour sum: into zeros, the feature row of every edge's source added at its destination's row. -/
def neighbourSum (e : (⟨S2x800000, .i32⟩ : BufTy).Contents (Elt Ideal)) (x : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32)) (targetCol e)
    (Host.gather gather_S50000x128_S800000x1_S800000x128_1_0_n_n_0_1_1128 x (sourceCol e))

/-- The in-degree: into zeros, a one added per edge at its destination. -/
def inDegree (e : (⟨S2x800000, .i32⟩ : BufTy).Contents (Elt Ideal)) : S50000.Idx → EReal :=
  Host.scatterAdd (F := Ideal) scatter_S50000_S800000x1_S800000_n_0_0_1
    (broadcastInDim S50000 ![] bcast_S_S50000 (constant (F := Ideal) S_ .f32 0x00000000#32)) (targetCol e)
    (broadcastInDim S800000 ![] bcast_S_S800000 (constant (F := Ideal) S_ .f32 0x3F800000#32))

/-- The in-degree clamped from below by one. -/
def degree (e : (⟨S2x800000, .i32⟩ : BufTy).Contents (Elt Ideal)) : S50000.Idx → EReal :=
  maximumf (F := Ideal) (φ := .f32) (inDegree e) (broadcastInDim S50000 ![] bcast_S_S50000 (constant (F := Ideal) S_ .f32 0x3F800000#32))

/-- The float one spread over the nodes reads, at every node, the number the float one denotes. -/
theorem ones_apply (i : S50000.Idx) :
    broadcastInDim S50000 ![] bcast_S_S50000 (constant (F := Ideal) S_ .f32 0x3F800000#32) i = Ideal.ofBits .f32 0x3F800000#32 :=
  (broadcastInDim_apply _ bcast_S_S50000 (constant (F := Ideal) S_ .f32 0x3F800000#32) i ix0 (fun a => a.elim0)).trans
    (constant_apply _ _)

/-- The clamped in-degree at a node is the larger of the in-degree and one, so it is not zero. -/
theorem degree_ne_zero (e : (⟨S2x800000, .i32⟩ : BufTy).Contents (Elt Ideal)) (i : S50000.Idx) : degree e i ≠ 0 := by
  unfold degree
  generalize inDegree e = cnt
  rw [maximumf_apply, ones_apply]
  exact max_one_ne_zero _

/-- The reciprocal of a degree vector, as a column. -/
def reciprocalCol (d : S50000.Idx → EReal) : S50000x1.Idx → EReal :=
  broadcastInDim S50000x1 ![0] bcast_S50000_S50000x1_0
    (Host.divf (F := Ideal) (φ := .f32) (broadcastInDim S50000 ![] bcast_S_S50000 (constant (F := Ideal) S_ .f32 0x3F800000#32)) d)

/-- That column spread over the 128 feature columns. -/
def spreadReciprocal (d : S50000.Idx → EReal) : S50000x128.Idx → EReal :=
  broadcastInDim S50000x128 ![0, 1] bcast_S50000x1_S50000x128_0_1 (reciprocalCol d)

/-- The spread reciprocal at (p, k) is one over the degree of node p. -/
theorem spreadReciprocal_apply (d : S50000.Idx → EReal) (p : Fin 50000) (k : Fin 128) :
    spreadReciprocal d (ix2 p k) = Ideal.div (Ideal.ofBits .f32 0x3F800000#32) (d (ix1 p)) := by
  unfold spreadReciprocal reciprocalCol
  rw [broadcastInDim_apply _ bcast_S50000x1_S50000x128_0_1 _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])]
  rw [broadcastInDim_apply _ bcast_S50000_S50000x1_0 _ (ix2 p (0 : Fin 1)) (ix1 p) (fun a => match a with
    | ⟨0, _⟩ => by show p.val = if (50000 : Nat) = 1 then 0 else p.val; rw [if_neg (by decide)])]
  show Ideal.div (broadcastInDim S50000 ![] bcast_S_S50000 (constant (F := Ideal) S_ .f32 0x3F800000#32) (ix1 p)) (d (ix1 p)) = _
  rw [ones_apply]

/-- Scaling the rows of `s` by the spread reciprocal of a nowhere-zero degree divides them by it. -/
theorem scaled_eq_meanRows (d : S50000.Idx → EReal) (hd : ∀ i, d i ≠ 0) (s : S50000x128.Idx → EReal) :
    mulf (F := Ideal) (φ := .f32) s (spreadReciprocal d) = meanRows (N := 50000) (K := 128) s d := by
  funext i
  obtain ⟨p, k, rfl⟩ : ∃ (p : Fin 50000) (k : Fin 128), i = ix2 p k := ⟨i 0, i 1, eq_ix2 i⟩
  rw [meanRows_apply, mulf_apply, spreadReciprocal_apply]
  exact mul_one_div _ _ (hd _)

/-- The aggregate both layers feed on: the neighbour sum scaled by the spread reciprocal of the clamped in-degree is
    the neighbour sum's rows divided by their clamped in-degree. -/
theorem aggregate_eq (e : (⟨S2x800000, .i32⟩ : BufTy).Contents (Elt Ideal)) (x : S50000x128.Idx → EReal) :
    mulf (F := Ideal) (φ := .f32) (neighbourSum e x) (spreadReciprocal (degree e))
      = meanRows (N := 50000) (K := 128) (neighbourSum e x) (degree e) :=
  scaled_eq_meanRows (degree e) (degree_ne_zero e) (neighbourSum e x)

/-! ## The bias as a row, and one layer along the edges -/

/-- A bias vector as a 1 × 128 row: entry (0, q) is the vector's entry q. -/
def biasRow (b : S128.Idx → EReal) : S1x128.Idx → EReal := fun i => b (ix1 (i 1))

/-- The host's recast of a bias vector to a 1 × 128 array is that row. -/
theorem recast_bias (b : S128.Idx → EReal) : shapeCast S1x128 b shapeCasts_S128_S1x128 = biasRow b := by
  funext i
  obtain ⟨u, q, rfl⟩ : ∃ (u : Fin 1) (q : Fin 128), i = ix2 u q := ⟨i 0, i 1, eq_ix2 i⟩
  exact shapeCast_a_1a_apply b shapeCasts_S128_S1x128 u q

/-- One mean-aggregating layer along the edges `e`: the neighbour sums of `x` divided by the clamped in-degrees, times
    `wl`, plus `x` times `wr`, plus the bias, rectified. -/
def sageLayer (e : (⟨S2x800000, .i32⟩ : BufTy).Contents (Elt Ideal)) (x : S50000x128.Idx → EReal)
    (wl : S128x128.Idx → EReal) (b : S128.Idx → EReal) (wr : S128x128.Idx → EReal) : S50000x128.Idx → EReal :=
  layer (N := 50000) (K := 128) (M := 128) (neighbourSum e) (degree e) x wl wr (biasRow b)

end Cert.KernelIdeal.Edges

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KernelBody.lean ====
/-
  What one grid step of each of the two kernels stores, read at an entry.

  A step holds 5000 rows of the node features `x` and of the aggregate `a`, both weight matrices whole and the bias as
  a 1 × 128 row. It rounds the four matrices to a narrower float format (the identity on the extended reals), multiplies
  `a` by the first weight matrix and `x` by the second into zero accumulators, adds the two products, adds the bias row
  spread over the 5000 rows, and keeps the larger of each entry and zero. So entry (p, q) of what it stores is the
  rectified combine of `a` and `x` at (p, q): two plain sums over the 128 contracted columns, plus the bias at q.
  The second kernel differs from the first only by a cast of `x` to its own shape.
-/
import proofs.«130737_j7937099563499_1_alg».proof.Proof.Gen.KernelIdeal.Skeleton
import proofs.«130737_j7937099563499_1_alg».proof.Proof.LibPlainDot
import proofs.«130737_j7937099563499_1_alg».proof.Proof.LibGraphConv
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx Cert.GraphConv

/-- The kernels' product: rows of a 5000 × 128 block against columns of a 128 × 128 matrix. -/
abbrev prod : DotDims S5000x128 S128x128 S5000x128 := dot_S5000x128_S128x128_S5000x128_1_0_0_1_n_n

theorem prod_l0 (i : S5000x128.Idx) (q : prod.contr.Idx) : (prod.lhsIdx i q 0).val = (i 0).val := by
  unfold DotDims.lhsIdx
  rw [dif_neg (show ¬(0 : Fin S5000x128.rank) ∈ prod.lhsBatch by decide),
    dif_pos (show (0 : Fin S5000x128.rank) ∈ prod.lhsNonContracting by decide)]
  rfl
theorem prod_l1 (i : S5000x128.Idx) (q : prod.contr.Idx) : (prod.lhsIdx i q 1).val = (q ⟨0, by decide⟩).val :=
  prod.lhsIdx_val_of_single rfl i q
theorem prod_r0 (i : S5000x128.Idx) (q : prod.contr.Idx) : (prod.rhsIdx i q 0).val = (q ⟨0, by decide⟩).val :=
  prod.rhsIdx_val_of_single rfl i q
theorem prod_r1 (i : S5000x128.Idx) (q : prod.contr.Idx) : (prod.rhsIdx i q 1).val = (i 1).val := by
  unfold DotDims.rhsIdx
  rw [dif_neg (show ¬(1 : Fin S128x128.rank) ∈ prod.rhsBatch by decide),
    dif_pos (show (1 : Fin S128x128.rank) ∈ prod.rhsNonContracting by decide)]
  rfl

/-- A product of a block with a weight matrix into zero, at (p, q): the plain sum over the 128 columns. -/
theorem prod_apply (l : FVec Ideal S5000x128 .bf16) (r : FVec Ideal S128x128 .bf16) (p : Fin 5000) (q : Fin 128) :
    matmul prod none l r (constant S5000x128 .f32 0x00000000#32) (ix2 p q)
      = ∑ k : Fin 128, (l (ix2 p k) : EReal) * (r (ix2 k q) : EReal) :=
  PlainDot.matmul_zero_apply prod rfl rfl prod_l0 prod_l1 prod_r0 prod_r1 none l r p q

/-- The first kernel's stored value at (p, q). -/
theorem pay0_apply (x a : Vec Ideal S5000x128 .f32) (wl wr : Vec Ideal S128x128 .f32) (b : Vec Ideal S1x128 .f32)
    (p : Fin 5000) (q : Fin 128) :
    k0_pay1 (F := Ideal) x a wl wr b (ix2 p q) = rectify (combine a x wl wr b) (ix2 p q) := by
  unfold k0_pay1
  rw [rectify_apply, combine_apply]
  refine congrArg₂ max (congrArg₂ (· + ·) (congrArg₂ (· + ·) ?_ ?_) ?_) rfl
  · refine (prod_apply _ _ p q).trans ?_
    rw [shapeCast_self]
    rfl
  · exact prod_apply _ _ p q
  · refine (broadcastTo_1b_ab_apply _ broadcasts_S1x128_S5000x128 p q).trans ?_
    rw [shapeCast_self]

/-- The second kernel's stored value at (p, q). -/
theorem pay1_apply (x a : Vec Ideal S5000x128 .f32) (wl wr : Vec Ideal S128x128 .f32) (b : Vec Ideal S1x128 .f32)
    (p : Fin 5000) (q : Fin 128) :
    k1_pay1 (F := Ideal) x a wl wr b (ix2 p q) = rectify (combine a x wl wr b) (ix2 p q) := by
  unfold k1_pay1
  rw [rectify_apply, combine_apply]
  refine congrArg₂ max (congrArg₂ (· + ·) (congrArg₂ (· + ·) ?_ ?_) ?_) rfl
  · refine (prod_apply _ _ p q).trans ?_
    rw [shapeCast_self]
    rfl
  · refine (prod_apply _ _ p q).trans ?_
    rw [shapeCast_self]
    rfl
  · refine (broadcastTo_1b_ab_apply _ broadcasts_S1x128_S5000x128 p q).trans ?_
    rw [shapeCast_self]

end Cert.KernelIdeal.Body

end
-- ==== Proof.Layer0Grid.lean ====
/-
  The first layer's grid: what its output array holds after the ten steps.

  Step t fetches rows 5000·t … 5000·t + 4999 of the node features and of the aggregate, and both weight matrices and the
  bias row whole, and writes back rows 5000·t … 5000·t + 4999 of the output. An entry of the combine depends on one row
  of the features and of the aggregate, so what step t writes back is rows 5000·t … of ONE function of the whole arrays:
  the rectified combine of the aggregate and the features as the grid finds them. The ten blocks tile the output array,
  so after the last step the array is that function.
-/
import proofs.«130737_j7937099563499_1_alg».proof.Proof.Gen.KernelIdeal.Frame
import proofs.«130737_j7937099563499_1_alg».proof.Proof.KernelBody
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.GraphConv

-- the buffer contents when the grid is entered: a parameter, never opened here
variable (V : (c : Dev nD) → (b : Ref sig .tc) → Buf (Elt Ideal) ((c : Thread nD τ).loc b))

theorem origin : (![0, 0] : Fin 2 → Nat) = fun _ => 0 := funext fun a => by fin_cases a <;> rfl

/-- The output array after the grid: the rectified combine of the aggregate and the node features, both weight matrices
    and the bias row, each as the grid finds it. -/
def result (c : Dev nD) : S50000x128.Idx → EReal :=
  rectify (combine (n := 50000) (K := 128) (M := 128) (V c main_v24) (V c main_arg0) (V c main_arg2) (V c main_arg4) (V c main_v25))

/-- Where each window's block sits at step `t`, decided over the ten steps: the features', the aggregate's and the
    output's blocks share their row block and start at column 0; the weights and the bias stay at the origin. -/
theorem block_index : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some step's. -/
theorem block_onto : ∀ q : Fin 10, ∃ t : Fin cfg0.N, win0_5.index t = ![q.val, 0] :=
  (by decide +kernel : ∀ q : Fin 10, ∃ t : Fin grid0.N, win0_5.index t = ![q.val, 0])

/-- What step `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e51, e5b⟩ := block_index t
  funext j
  show k0_pay1 (F := Ideal) (iblk0 V c 0 t) (iblk0 V c 1 t) (iblk0 V c 2 t) (iblk0 V c 4 t) (iblk0 V c 3 t) j
    = result V c (((cfg0.win 5).blk t).view.emb j)
  rw [eq_ix2 j]
  refine (Body.pay0_apply _ _ _ _ _ (j 0) (j 1)).trans ?_
  unfold result
  refine rectify_congr _ _ _ _ (combine_congr _ _ _ _ _ _ _ _ _ _ _ _ ?_ ?_ ?_ ?_ ?_)
  · intro k
    show V c main_v24 (((cfg0.win 1).blk t).view.emb (ix2 (j 0) k)) = _
    refine congrArg _ ?_
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_arg0 (((cfg0.win 0).blk t).view.emb (ix2 (j 0) k)) = _
    refine congrArg _ ?_
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg2 (((cfg0.win 2).blk t).view.emb (ix2 k (j 1))) = _
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 4).blk t).view.emb (ix2 k (j 1))) = _
    refine congrArg _ ?_
    funext a; apply Fin.ext
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · show V c main_v25 (((cfg0.win 3).blk t).view.emb (ix2 (0 : Fin 1) (j 1))) = _
    refine congrArg _ ?_
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the output array is in step `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row r of the output array is written back by the step whose block holds it: step r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the ten steps is `result`. -/
theorem final (c : Dev nD) : (dat0 V c).arrAt 5 cfg0.N = result V c :=
  (dat0 V c).arrAt_eq_of_cover 5 (result V c) (fun t _ => flushed_eq V c t) covered

end Cert.KernelIdeal.Layer0

end
-- ==== Proof.Layer1Grid.lean ====
/-
  The second layer's grid: what its output array holds after the ten steps.

  Step t fetches rows 5000·t … 5000·t + 4999 of the node features and of the aggregate, and both weight matrices and the
  bias row whole, and writes back rows 5000·t … 5000·t + 4999 of the output. An entry of the combine depends on one row
  of the features and of the aggregate, so what step t writes back is rows 5000·t … of ONE function of the whole arrays:
  the rectified combine of the aggregate and the features as the grid finds them. The ten blocks tile the output array,
  so after the last step the array is that function.
-/
import proofs.«130737_j7937099563499_1_alg».proof.Proof.Gen.KernelIdeal.Frame
import proofs.«130737_j7937099563499_1_alg».proof.Proof.KernelBody
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.GraphConv

-- the buffer contents when the grid is entered: a parameter, never opened here
variable (V : (c : Dev nD) → (b : Ref sig .tc) → Buf (Elt Ideal) ((c : Thread nD τ).loc b))

theorem origin : (![0, 0] : Fin 2 → Nat) = fun _ => 0 := funext fun a => by fin_cases a <;> rfl

/-- The output array after the grid: the rectified combine of the aggregate and the node features, both weight matrices
    and the bias row, each as the grid finds it. -/
def result (c : Dev nD) : S50000x128.Idx → EReal :=
  rectify (combine (n := 50000) (K := 128) (M := 128) (V c main_v38) (V c main_v26) (V c main_arg5) (V c main_arg7) (V c main_v39))

/-- Where each window's block sits at step `t`, decided over the ten steps: the features', the aggregate's and the
    output's blocks share their row block and start at column 0; the weights and the bias stay at the origin. -/
theorem block_index : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some step's. -/
theorem block_onto : ∀ q : Fin 10, ∃ t : Fin cfg1.N, win1_5.index t = ![q.val, 0] :=
  (by decide +kernel : ∀ q : Fin 10, ∃ t : Fin grid1.N, win1_5.index t = ![q.val, 0])

/-- What step `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e51, e5b⟩ := block_index t
  funext j
  show k1_pay1 (F := Ideal) (iblk1 V c 0 t) (iblk1 V c 1 t) (iblk1 V c 2 t) (iblk1 V c 4 t) (iblk1 V c 3 t) j
    = result V c (((cfg1.win 5).blk t).view.emb j)
  rw [eq_ix2 j]
  refine (Body.pay1_apply _ _ _ _ _ (j 0) (j 1)).trans ?_
  unfold result
  refine rectify_congr _ _ _ _ (combine_congr _ _ _ _ _ _ _ _ _ _ _ _ ?_ ?_ ?_ ?_ ?_)
  · intro k
    show V c main_v38 (((cfg1.win 1).blk t).view.emb (ix2 (j 0) k)) = _
    refine congrArg _ ?_
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_v26 (((cfg1.win 0).blk t).view.emb (ix2 (j 0) k)) = _
    refine congrArg _ ?_
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_arg5 (((cfg1.win 2).blk t).view.emb (ix2 k (j 1))) = _
    refine congrArg _ ?_
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_arg7 (((cfg1.win 4).blk t).view.emb (ix2 k (j 1))) = _
    refine congrArg _ ?_
    funext a; apply Fin.ext
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · show V c main_v39 (((cfg1.win 3).blk t).view.emb (ix2 (0 : Fin 1) (j 1))) = _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the output array is in step `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row r of the output array is written back by the step whose block holds it: step r / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := block_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the ten steps is `result`. -/
theorem final (c : Dev nD) : (dat1 V c).arrAt 5 cfg1.N = result V c :=
  (dat1 V c).arrAt_eq_of_cover 5 (result V c) (fun t _ => flushed_eq V c t) covered

end Cert.KernelIdeal.Layer1

end
-- ==== Proof.KernelValue.lean ====
/-
  What the idealized kernel program computes: its result array as one function of the argument arrays.

  Between the launch and the first grid the host forms the edge list's two columns, the clamped in-degree's reciprocal
  and the first aggregate, and recasts the first bias as a row; between the two grids it gathers and adds the first
  grid's output along the same edges, scales by the same reciprocal and recasts the second bias. Each grid's output is
  the rectified combine of the aggregate and the features it finds. Reading the contents at each boundary back to the
  arguments: the aggregate is the rows of the neighbour sum divided by their clamped in-degree, so each grid's output is
  one mean-aggregating layer of its input, and the result is the second layer of the first layer of `x`.
-/
import proofs.«130737_j7937099563499_1_alg».proof.Proof.Gen.KernelIdeal.Frame
import proofs.«130737_j7937099563499_1_alg».proof.Proof.EdgeSums
import proofs.«130737_j7937099563499_1_alg».proof.Proof.Layer0Grid
import proofs.«130737_j7937099563499_1_alg».proof.Proof.Layer1Grid
import proofs.«130737_j7937099563499_1_alg».proof.Proof.LibMeanLayer
import Idealize.ShloMosaic.Lib.StableHlo.Run
import Idealize.ShloMosaic.Lib.ValueLayout

set_option maxRecDepth 16384

noncomputable section

namespace Cert.KernelIdeal.Value

open Cert.KernelIdeal Cert.KernelIdeal.Gen Cert.KernelIdeal.Edges
open Idealize.ShloMosaic Idealize.ShloMosaic.TcCoe Idealize.SL.Sem Idealize.ShloMosaic.StableHlo
open Idealize.ShloMosaic.ValueIdx Cert.GraphConv Cert.MeanLayer

variable (m : (ℓ : Loc nD τ sig) → Buf (Elt Ideal) ℓ) (ρ : Dev nD → PrngReg)

/-! ## The contents the first grid finds -/

theorem first_x (c : Dev nD) : V1 m ρ c main_arg0 = m ((c : Thread nD τ).loc main_arg0) := by
  show StableHlo.after hostOps0 (W0 m ρ c) (Proc.devRef .tc main_arg0) = _
  after_results_simp
theorem first_wl (c : Dev nD) : V1 m ρ c main_arg2 = m ((c : Thread nD τ).loc main_arg2) := by
  show StableHlo.after hostOps0 (W0 m ρ c) (Proc.devRef .tc main_arg2) = _
  after_results_simp
theorem first_wr (c : Dev nD) : V1 m ρ c main_arg4 = m ((c : Thread nD τ).loc main_arg4) := by
  show StableHlo.after hostOps0 (W0 m ρ c) (Proc.devRef .tc main_arg4) = _
  after_results_simp
theorem first_bias (c : Dev nD) :
    V1 m ρ c main_v25 = shapeCast S1x128 (m ((c : Thread nD τ).loc main_arg3)) Facts₀.shapeCasts_S128_S1x128 := by
  show StableHlo.after hostOps0 (W0 m ρ c) (Proc.devRef .tc main_v25) = _
  after_results_simp
  rfl
set_option maxHeartbeats 2000000 in
theorem first_aggregate (c : Dev nD) :
    V1 m ρ c main_v24 = mulf (F := Ideal) (φ := .f32)
      (neighbourSum (m ((c : Thread nD τ).loc main_arg1)) (m ((c : Thread nD τ).loc main_arg0)))
      (spreadReciprocal (degree (m ((c : Thread nD τ).loc main_arg1)))) := by
  show StableHlo.after hostOps0 (W0 m ρ c) (Proc.devRef .tc main_v24) = _
  after_results_simp
  rfl

/-! ## What the host stretch before the first grid leaves for the second -/

theorem kept_sources (c : Dev nD) : W1 m ρ c (Proc.devRef .tc main_v1) = sources (m ((c : Thread nD τ).loc main_arg1)) := by
  show StableHlo.after hostOps0 (W0 m ρ c) (Proc.devRef .tc main_v1) = _
  after_results_simp
  rfl
theorem kept_targets (c : Dev nD) : W1 m ρ c (Proc.devRef .tc main_v3) = targets (m ((c : Thread nD τ).loc main_arg1)) := by
  show StableHlo.after hostOps0 (W0 m ρ c) (Proc.devRef .tc main_v3) = _
  after_results_simp
  rfl
set_option maxHeartbeats 2000000 in
theorem kept_reciprocal (c : Dev nD) :
    W1 m ρ c (Proc.devRef .tc main_v12) = reciprocalCol (degree (m ((c : Thread nD τ).loc main_arg1))) := by
  show StableHlo.after hostOps0 (W0 m ρ c) (Proc.devRef .tc main_v12) = _
  after_results_simp
  rfl
theorem kept_wl (c : Dev nD) : W1 m ρ c (Proc.devRef .tc main_arg5) = m ((c : Thread nD τ).loc main_arg5) := by
  show StableHlo.after hostOps0 (W0 m ρ c) (Proc.devRef .tc main_arg5) = _
  after_results_simp
theorem kept_b (c : Dev nD) : W1 m ρ c (Proc.devRef .tc main_arg6) = m ((c : Thread nD τ).loc main_arg6) := by
  show StableHlo.after hostOps0 (W0 m ρ c) (Proc.devRef .tc main_arg6) = _
  after_results_simp
theorem kept_wr (c : Dev nD) : W1 m ρ c (Proc.devRef .tc main_arg7) = m ((c : Thread nD τ).loc main_arg7) := by
  show StableHlo.after hostOps0 (W0 m ρ c) (Proc.devRef .tc main_arg7) = _
  after_results_simp

/-! ## The first grid's output: one layer of `x` -/

theorem first_output (c : Dev nD) :
    Layer0.result (V1 m ρ) c = sageLayer (m ((c : Thread nD τ).loc main_arg1)) (m ((c : Thread nD τ).loc main_arg0))
      (m ((c : Thread nD τ).loc main_arg2)) (m ((c : Thread nD τ).loc main_arg3)) (m ((c : Thread nD τ).loc main_arg4)) := by
  unfold Layer0.result
  rw [first_aggregate, first_x, first_wl, first_wr, first_bias, aggregate_eq, recast_bias]
  rfl

/-! ## The contents the second grid finds -/

theorem W2_first_output (c : Dev nD) : W2 m ρ c (Proc.devRef .tc main_v26) = Layer0.result (V1 m ρ) c :=
  (W2_arr m ρ c 5).trans (Layer0.final (V1 m ρ) c)

theorem second_x (c : Dev nD) : V3 m ρ c main_v26 = Layer0.result (V1 m ρ) c := by
  show StableHlo.after hostOps1 (W2 m ρ c) (Proc.devRef .tc main_v26) = _
  generalize hW : W2 m ρ c = W
  after_results_simp
  rw [← hW]
  exact W2_first_output m ρ c
theorem second_wl (c : Dev nD) : V3 m ρ c main_arg5 = m ((c : Thread nD τ).loc main_arg5) := by
  show StableHlo.after hostOps1 (W2 m ρ c) (Proc.devRef .tc main_arg5) = _
  generalize hW : W2 m ρ c = W
  after_results_simp
  rw [← hW]
  exact (W2_of_ne m ρ c main_arg5 (by decide)).trans (kept_wl m ρ c)
theorem second_wr (c : Dev nD) : V3 m ρ c main_arg7 = m ((c : Thread nD τ).loc main_arg7) := by
  show StableHlo.after hostOps1 (W2 m ρ c) (Proc.devRef .tc main_arg7) = _
  generalize hW : W2 m ρ c = W
  after_results_simp
  rw [← hW]
  exact (W2_of_ne m ρ c main_arg7 (by decide)).trans (kept_wr m ρ c)
theorem second_bias (c : Dev nD) :
    V3 m ρ c main_v39 = shapeCast S1x128 (m ((c : Thread nD τ).loc main_arg6)) Facts₀.shapeCasts_S128_S1x128 := by
  show StableHlo.after hostOps1 (W2 m ρ c) (Proc.devRef .tc main_v39) = _
  generalize hW : W2 m ρ c = W
  after_results_simp
  rw [← hW, (W2_of_ne m ρ c main_arg6 (by decide)).trans (kept_b m ρ c)]
  rfl
theorem second_aggregate (c : Dev nD) :
    V3 m ρ c main_v38 = mulf (F := Ideal) (φ := .f32)
      (neighbourSum (m ((c : Thread nD τ).loc main_arg1)) (Layer0.result (V1 m ρ) c))
      (spreadReciprocal (degree (m ((c : Thread nD τ).loc main_arg1)))) := by
  show StableHlo.after hostOps1 (W2 m ρ c) (Proc.devRef .tc main_v38) = _
  generalize hW : W2 m ρ c = W
  after_results_simp
  rw [← hW, W2_first_output, (W2_of_ne m ρ c main_v1 (by decide)).trans (kept_sources m ρ c),
    (W2_of_ne m ρ c main_v3 (by decide)).trans (kept_targets m ρ c),
    (W2_of_ne m ρ c main_v12 (by decide)).trans (kept_reciprocal m ρ c)]
  rfl

/-! ## The result -/

/-- The program's result array at the last boundary: the second layer of the first layer of `x`. -/
theorem result_eq (c : Dev nD) :
    W4 m ρ c (Proc.devRef .tc main_v40)
      = sageLayer (m ((c : Thread nD τ).loc main_arg1))
          (sageLayer (m ((c : Thread nD τ).loc main_arg1)) (m ((c : Thread nD τ).loc main_arg0))
            (m ((c : Thread nD τ).loc main_arg2)) (m ((c : Thread nD τ).loc main_arg3)) (m ((c : Thread nD τ).loc main_arg4)))
          (m ((c : Thread nD τ).loc main_arg5)) (m ((c : Thread nD τ).loc main_arg6)) (m ((c : Thread nD τ).loc main_arg7)) := by
  refine ((W4_arr m ρ c 5).trans (Layer1.final (V3 m ρ) c)).trans ?_
  unfold Layer1.result
  rw [second_aggregate, second_x, second_wl, second_wr, second_bias, first_output, aggregate_eq, recast_bias]
  rfl

end Cert.KernelIdeal.Value

end
-- ==== Proof.ReferenceValue.lean ====
/-
  What the idealized reference computes: two mean-aggregating layers along the edges.

  The reference forms, per layer, the neighbour sum of its input and the clamped in-degree with the same host operations
  the kernel program uses, divides the rows of the neighbour sum by their clamped in-degree, multiplies by the first
  weight matrix, adds the bias, adds the product of the input with the second weight matrix, and rectifies. Read at an
  entry (p, q) that is the layer's entry with the bias added between the two products; addition of extended reals is
  commutative and associative, so it is the layer's entry.
-/
import proofs.«130737_j7937099563499_1_alg».proof.Proof.Gen.ReferenceIdeal.Read
import proofs.«130737_j7937099563499_1_alg».proof.Proof.EdgeSums
import proofs.«130737_j7937099563499_1_alg».proof.Proof.LibMeanLayer
import Idealize.ShloMosaic.Lib.ValueIdx

set_option maxRecDepth 16384

noncomputable section

open scoped BigOperators

namespace Cert.ReferenceIdeal.RefValue

open Cert.ReferenceIdeal Cert.ReferenceIdeal.Read Idealize.ShloMosaic Idealize.ShloMosaic.ValueIdx Cert.MeanLayer
open Cert.KernelIdeal.Edges (neighbourSum degree biasRow sageLayer)

/-! ## The reference's edge sums are the kernel program's -/

theorem sum_first (x0 : (⟨S50000x128, .f32⟩ : BufTy).Contents (Elt Ideal)) (e : (⟨S2x800000, .i32⟩ : BufTy).Contents (Elt Ideal)) :
    val_main_v13 (F := Ideal) x0 e = neighbourSum e x0 := rfl

theorem degree_first (e : (⟨S2x800000, .i32⟩ : BufTy).Contents (Elt Ideal)) : val_main_v19 (F := Ideal) e = degree e := rfl

theorem sum_second (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v39 (F := Ideal) x0 e x2 x3 x4 = neighbourSum e (val_main_v29 (F := Ideal) x0 e x2 x3 x4) := rfl

theorem degree_second (e : (⟨S2x800000, .i32⟩ : BufTy).Contents (Elt Ideal)) : val_main_v45 (F := Ideal) e = degree e := rfl

/-! ## The first layer -/

theorem first_layer (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 e x2 x3 x4 = sageLayer e x0 x2 x3 x4 := by
  unfold sageLayer
  funext i
  obtain ⟨p, q, rfl⟩ : ∃ (p : Fin 50000) (q : Fin 128), i = ix2 p q := ⟨i 0, i 1, eq_ix2 i⟩
  rw [← layer_apply_bias_between]
  rw [val_main_v29_apply, val_main_v28_apply, val_main_v26_apply, val_main_v23_apply, val_main_v27_apply,
    val_main_v25_apply, val_main_v24_apply, val_main_call0_v0_apply, val_main_call0_cst_apply]
  refine congrArg₂ max (congrArg₂ (· + ·) (congrArg₂ (· + ·) (Finset.sum_congr rfl fun k _ => ?_) ?_)
    (Finset.sum_congr rfl fun k _ => ?_)) rfl
  · have hl : lidx_main_v23 (ix2 p q) k = ix2 p k := funext fun a => Fin.ext (by
      match a with | ⟨0, _⟩ => rfl | ⟨1, _⟩ => rfl)
    have hr : ridx_main_v23 (ix2 p q) k = ix2 k q := funext fun a => Fin.ext (by
      match a with | ⟨0, _⟩ => rfl | ⟨1, _⟩ => rfl)
    have hd : idx_main_v20 (idx_main_v21 (ix2 p k)) = ix1 p := funext fun a => Fin.ext (by
      match a with | ⟨0, _⟩ => rfl)
    rw [hl, hr, val_main_v22_apply, val_main_v21_apply, val_main_v20_apply, hd, sum_first, degree_first]
    rfl
  · show x3 (idx_main_v24 (idx_main_v25 (ix2 p q))) = biasRow x3 (ix2 (0 : Fin 1) q)
    refine congrArg x3 (funext fun a => Fin.ext (by match a with | ⟨0, _⟩ => rfl))
  · have hl : lidx_main_v27 (ix2 p q) k = ix2 p k := funext fun a => Fin.ext (by
      match a with | ⟨0, _⟩ => rfl | ⟨1, _⟩ => rfl)
    have hr : ridx_main_v27 (ix2 p q) k = ix2 k q := funext fun a => Fin.ext (by
      match a with | ⟨0, _⟩ => rfl | ⟨1, _⟩ => rfl)
    rw [hl, hr]

/-! ## The second layer, of any input the first stage names -/

theorem second_layer (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 e x2 x3 x4 x5 x6 x7 = sageLayer e (val_main_v29 (F := Ideal) x0 e x2 x3 x4) x5 x6 x7 := by
  unfold sageLayer
  funext i
  obtain ⟨p, q, rfl⟩ : ∃ (p : Fin 50000) (q : Fin 128), i = ix2 p q := ⟨i 0, i 1, eq_ix2 i⟩
  rw [← layer_apply_bias_between]
  rw [val_main_v55_apply, val_main_v54_apply, val_main_v52_apply, val_main_v49_apply, val_main_v53_apply,
    val_main_v51_apply, val_main_v50_apply, val_main_call1_v0_apply, val_main_call1_cst_apply]
  refine congrArg₂ max (congrArg₂ (· + ·) (congrArg₂ (· + ·) (Finset.sum_congr rfl fun k _ => ?_) ?_)
    (Finset.sum_congr rfl fun k _ => ?_)) rfl
  · have hl : lidx_main_v49 (ix2 p q) k = ix2 p k := funext fun a => Fin.ext (by
      match a with | ⟨0, _⟩ => rfl | ⟨1, _⟩ => rfl)
    have hr : ridx_main_v49 (ix2 p q) k = ix2 k q := funext fun a => Fin.ext (by
      match a with | ⟨0, _⟩ => rfl | ⟨1, _⟩ => rfl)
    have hd : idx_main_v46 (idx_main_v47 (ix2 p k)) = ix1 p := funext fun a => Fin.ext (by
      match a with | ⟨0, _⟩ => rfl)
    rw [hl, hr, val_main_v48_apply, val_main_v47_apply, val_main_v46_apply, hd, sum_second, degree_second]
    rfl
  · show x6 (idx_main_v50 (idx_main_v51 (ix2 p q))) = biasRow x6 (ix2 (0 : Fin 1) q)
    refine congrArg x6 (funext fun a => Fin.ext (by match a with | ⟨0, _⟩ => rfl))
  · have hl : lidx_main_v53 (ix2 p q) k = ix2 p k := funext fun a => Fin.ext (by
      match a with | ⟨0, _⟩ => rfl | ⟨1, _⟩ => rfl)
    have hr : ridx_main_v53 (ix2 p q) k = ix2 k q := funext fun a => Fin.ext (by
      match a with | ⟨0, _⟩ => rfl | ⟨1, _⟩ => rfl)
    rw [hl, hr]

/-- The reference's result: the second layer of the first layer of `x`. -/
theorem result_eq (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 e x2 x3 x4 x5 x6 x7 = sageLayer e (sageLayer e x0 x2 x3 x4) x5 x6 x7 := by
  rw [second_layer, first_layer]

end Cert.ReferenceIdeal.RefValue

end
-- ==== Proof.lean ====
/-
  A two-layer mean-aggregating graph network, the tiled kernel program against its whole-array reference.

  Each layer gathers the feature row of every edge's source, adds it at the edge's destination, divides each node's sum by
  its in-degree clamped from below by one, and combines the result with the node's own row through two 128 × 128 weight
  matrices and a bias, then rectifies. The kernel program does the gathering and adding on the host, multiplies by the
  reciprocal of the clamped in-degree instead of dividing by it, and runs the dense combine as a grid of ten steps of
  5000 rows per layer, the bias added after the two products; the reference divides, and adds the bias between the two
  products. On the extended reals the product with the reciprocal of a number that is not zero is the quotient by it —
  the clamped in-degree is at least one —, and addition is commutative and associative, so both programs compute the
  second layer of the first layer of `x`, entry by entry. No finiteness of the inputs is used.

  The three frame claims are the generated frames of the two kernel programs and the reference's generated run with its
  result dropped; the ideal pass rewrote nothing, so `preserves` has nothing to state.
-/
import proofs.«130737_j7937099563499_1_alg».proof.Defs
import proofs.«130737_j7937099563499_1_alg».proof.Proof.Gen.Kernel
import proofs.«130737_j7937099563499_1_alg».proof.Proof.Gen.Kernel.Skeleton
import proofs.«130737_j7937099563499_1_alg».proof.Proof.Gen.Kernel.Launch
import proofs.«130737_j7937099563499_1_alg».proof.Proof.Gen.Kernel.Points
import proofs.«130737_j7937099563499_1_alg».proof.Proof.Gen.Kernel.Frame
import proofs.«130737_j7937099563499_1_alg».proof.Proof.Gen.KernelIdeal
import proofs.«130737_j7937099563499_1_alg».proof.Proof.Gen.KernelIdeal.Skeleton
import proofs.«130737_j7937099563499_1_alg».proof.Proof.Gen.KernelIdeal.Launch
import proofs.«130737_j7937099563499_1_alg».proof.Proof.Gen.KernelIdeal.Points
import proofs.«130737_j7937099563499_1_alg».proof.Proof.Gen.KernelIdeal.Frame
import proofs.«130737_j7937099563499_1_alg».proof.Proof.Gen.ReferenceIdeal
import proofs.«130737_j7937099563499_1_alg».proof.Proof.Gen.ReferenceIdeal.Run
import proofs.«130737_j7937099563499_1_alg».proof.Proof.Gen.ReferenceIdeal.Read
import proofs.«130737_j7937099563499_1_alg».proof.Proof.Gen.Pre_finite_inputs
import proofs.«130737_j7937099563499_1_alg».proof.Proof.KernelRun
import proofs.«130737_j7937099563499_1_alg».proof.Proof.KernelValue
import proofs.«130737_j7937099563499_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result array at the second layer of the first layer of `x` along the edge
    list: the kernel program by its run read at the last boundary, the reference by its run's term read entry by entry;
    the two memories agree on the arguments. -/
theorem algebraic : Cert.algebraic_KernelIdeal_ReferenceIdeal := by
  intro m ρ m' ρ' _ hagree
  refine ⟨fun c => Cert.KernelIdeal.Edges.sageLayer (m ((c.tc : Thread Cert.KernelIdeal.nD Cert.KernelIdeal.τ).loc Cert.KernelIdeal.main_arg1))
      (Cert.KernelIdeal.Edges.sageLayer (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
